-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S1x4096 : Shape := ⟨2, ![1, 4096]⟩
abbrev S8192x4096 : Shape := ⟨2, ![8192, 4096]⟩
abbrev S1x512 : Shape := ⟨2, ![1, 512]⟩
abbrev S512x512 : Shape := ⟨2, ![512, 512]⟩

abbrev nBuf : Space → Nat
  | .hbm => 10
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S4096x1, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S8192x4096, .f32⟩
  | .hbm, ⟨9, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  shapeCasts_S4096x1_S1x4096 : S4096x1.ShapeCasts S1x4096
  shapeCasts_S4096_S1x4096 : S4096.ShapeCasts S1x4096
  shapeCasts_S4x2048x4096_S8192x4096 : S4x2048x4096.ShapeCasts S8192x4096
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x4096.size a
  hwx1_4 : ∀ i : grid1.Coords, EltTy.bits .f32 = 32 ∨ (Rect.block (s := S8192x4096) S512x512.size (cc1_transform_4 i) (hinb1_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S1x4096 : Shape := ⟨2, ![1, 4096]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | .hbm, ⟨34, _⟩ => ⟨S1x1x4096, .f32⟩
  | .hbm, ⟨35, _⟩ => ⟨S4x2048x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4x2048x4096_S8192x4096 : S4x2048x4096.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelRun.lean ====
/-
  The kernel program's run, with its result named.

  The program is two kernel regions among stretches of host reshapes. Running it from any memory, every
  weakly fair execution terminates without a fault, and in the final state every buffer that outlives the
  regions holds what the last stretch leaves: the fold of the host stretches and the regions' write-backs
  over the launch memory. Read at the result buffer this names the result; read at the three arguments
  it gives them back unchanged.
-/
import proofs.«181053_j1073741824331_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at what
    the last host stretch leaves there and the three arguments as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelRun

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.Spec.lean ====
/-
  The value both programs compute, written once over the extended reals.

  For a weight matrix `W` (4096 × 4096), row `n` has the norm `‖W n‖ = √(∑ₖ W(n,k)²)`. Each weight is
  divided by its row's norm plus a small constant, clipped to `[-1, 1]`, divided by the step `s`, rounded
  to the nearest integer (ties to even) and multiplied by `s` again: the quantized weight `q(n,k)`.
  The result at row `r` of the flattened input (8192 × 4096) and output channel `n` is
  `(∑ₖ X(r,k) · q(n,k)) · ‖W n‖ + b n`; the three-axis result at `(i₀, i₁, i₂)` is that value at row
  `i₀ · 2048 + i₁` and channel `i₂`.

  The four constants (the small constant, `-1`, `1`, the step) stay as the bit patterns both programs
  spell: the same pattern denotes the same number on both sides, so none is ever evaluated.
-/
import Idealize.ShloMosaic.PureOps.Ideal
import Idealize.ShloMosaic.Lib.ValueIdx

noncomputable section

namespace Cert.Spec

open Idealize.ShloMosaic Idealize.ShloMosaic.ValueIdx

/-- The weight matrix's shape, the flattened input's, the three-axis input's and the bias's. -/
abbrev SW : Shape := ⟨2, ![4096, 4096]⟩
abbrev SX2 : Shape := ⟨2, ![8192, 4096]⟩
abbrev SX3 : Shape := ⟨3, ![4, 2048, 4096]⟩
abbrev SB : Shape := ⟨1, ![4096]⟩

/-- The Euclidean norm of row `n` of `W`: the square root of the sum of the row's squares. -/
def rowNorm (W : SW.Idx → EReal) (n : Fin 4096) : EReal :=
  Ideal.sqrt (∑ k : Fin 4096, W (ix2 n k) * W (ix2 n k))

/-- A weight `w` divided by `d`, clipped to `[-1, 1]`, divided by the step, rounded half to even and
    multiplied by the step. -/
def quantBy (w d : EReal) : EReal :=
  Ideal.liftRound Ideal.roundHalfEven
      (Ideal.div
        (min (Ideal.ofBits .f32 0x3F800000#32) (max (Ideal.ofBits .f32 0xBF800000#32) (Ideal.div w d)))
        (Ideal.ofBits .f32 0x3C010204#32))
    * Ideal.ofBits .f32 0x3C010204#32

/-- One weight `w` of a row of norm `nrm`, quantized: the divisor is the norm plus the small constant. -/
def quant (w nrm : EReal) : EReal := quantBy w (nrm + Ideal.ofBits .f32 0x322BCC77#32)

/-- The quantized weight at `(n, k)`. -/
def qWeight (W : SW.Idx → EReal) (n k : Fin 4096) : EReal := quant (W (ix2 n k)) (rowNorm W n)

/-- The result at row `r` of the flattened input and channel `n`: the row's product with the quantized
    weights of channel `n`, rescaled by that channel's norm, plus its bias. -/
def outAt (X : SX2.Idx → EReal) (W : SW.Idx → EReal) (b : SB.Idx → EReal) (r : Fin 8192) (n : Fin 4096) : EReal :=
  (∑ k : Fin 4096, X (ix2 r k) * qWeight W n k) * rowNorm W n + b (ix1 n)

/-- The flattened row of a three-axis index: `i₀ · 2048 + i₁`. -/
def rowOf (i : SX3.Idx) : Fin 8192 :=
  ⟨(i 0).val * 2048 + (i 1).val, by
    have h0 : (i 0).val < 4 := (i 0).isLt
    have h1 : (i 1).val < 2048 := (i 1).isLt
    omega⟩

/-- The whole result: at `(i₀, i₁, i₂)` the value at row `i₀ · 2048 + i₁` of the flattened input `X` and
    channel `i₂`. -/
def result (X : SX2.Idx → EReal) (W : SW.Idx → EReal) (b : SB.Idx → EReal) : SX3.Idx → EReal :=
  fun i => outAt X W b (rowOf i) (i 2)

end Cert.Spec

end
-- ==== Proof.QuantBlock.lean ====
/-
  What the quantizing kernel computes on one block of 512 rows of the weight matrix.

  The block's row `p` has the norm `√(∑ₖ x(p,k)²)`: the body squares the block, sums each row along its
  4096 columns, lays the 512 sums out as a column and takes square roots. The quantized block at `(p, q)`
  is the quantizer of `x(p,q)` and row `p`'s norm: the column of norms plus the small constant is
  broadcast along the columns and the rest is pointwise.
-/
import proofs.«181053_j1073741824331_1_alg».proof.Proof.Gen.KernelIdeal.Skeleton
import proofs.«181053_j1073741824331_1_alg».proof.Proof.LibColumn
import proofs.«181053_j1073741824331_1_alg».proof.Proof.Spec
import Idealize.ShloMosaic.PureOps.Ideal.Laws
import Idealize.ShloMosaic.Lib.ValueIdx
import Idealize.ShloMosaic.Lib.Pipeline.Value

noncomputable section

namespace Cert.QuantBlock

open Cert.KernelIdeal Cert.KernelIdeal.Gen Idealize.ShloMosaic Idealize.ShloMosaic.ValueIdx

/-- The norm of row `p` of a 512 × 4096 block. -/
def blockNorm (x0 : FVec Ideal S512x4096 .f32) (p : Fin 512) : EReal :=
  Ideal.sqrt (∑ k : Fin 4096, x0 (ix2 p k) * x0 (ix2 p k))

/-- The column of norms the body stores: at row `p` the block's row norm. -/
theorem pay_norm (x0 : FVec Ideal S512x4096 .f32) (p : Fin 512) (u : Fin 1) :
    k0_pay1 (F := Ideal) x0 (ix2 p u) = blockNorm x0 p := by
  unfold k0_pay1
  show Ideal.sqrt (shapeCast S512x1 (multiReduction (F := Ideal) .add [1] S512 (mulf x0 x0) 0x00000000#32
    reduces_S512x4096_S512 (.inl rfl) rfl) shapeCasts_S512_S512x1 (ix2 p u)) = _
  rw [LibColumn.shapeCast_a_a1_apply]
  refine (congrArg Ideal.sqrt (Ideal.multiReduction_add_single (mulf x0 x0) _ reduces_S512x4096_S512 _ _ (ix1 p))).trans ?_
  unfold blockNorm
  refine congrArg Ideal.sqrt (Finset.sum_congr rfl fun k _ => ?_)
  rw [LibColumn.lift_cols]
  rfl

/-- The quantized block the body stores: at `(p, q)` the quantizer of the weight and its row's norm. -/
theorem pay_quant (x0 : FVec Ideal S512x4096 .f32) (p : Fin 512) (q : Fin 4096) :
    k0_pay2 (F := Ideal) x0 (ix2 p q) = Spec.quant (x0 (ix2 p q)) (blockNorm x0 p) := by
  unfold k0_pay2
  show Spec.quantBy (x0 (ix2 p q)) (broadcastTo S512x4096 (addf (k0_pay1 (F := Ideal) x0)
    (broadcast S512x1 (Scalar.ofBits (F := Ideal) .f32 0x322BCC77#32))) broadcasts_S512x1_S512x4096 (ix2 p q)) = _
  rw [LibColumn.broadcastTo_a1_ab_apply]
  show Spec.quantBy (x0 (ix2 p q)) (k0_pay1 (F := Ideal) x0 (ix2 p (0 : Fin 1)) + Ideal.ofBits .f32 0x322BCC77#32) = _
  rw [pay_norm]
  rfl

end Cert.QuantBlock

end
-- ==== Proof.QuantArray.lean ====
/-
  The two arrays the quantizing kernel leaves, as whole-array functions of the weight matrix it finds.

  The grid has 8 points; point `t` reads rows `512 t … 512 t + 511` of the weight matrix (all 4096
  columns) and writes the same rows of the quantized matrix and of the column of norms. So what point
  `t` writes back is its block of ONE function of the matrix: the quantized weight `q(n,k)`, and the
  row norm `‖W n‖`. Row `n` lies in the block of point `n / 512`, so the blocks cover both arrays,
  and each array ends holding that function.
-/
import proofs.«181053_j1073741824331_1_alg».proof.Proof.Gen.KernelIdeal.Frame
import proofs.«181053_j1073741824331_1_alg».proof.Proof.QuantBlock

set_option maxRecDepth 16384

noncomputable section

namespace Cert.QuantArray

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One point's block, over any matrix `W` whose rows `512 b … 512 b + 511` the block `x0` holds -/

/-- The quantized block at `y` is the quantized weight at the array index `i` that `y` sits at. -/
theorem quant_point (W : Spec.SW.Idx → EReal) (x0 : FVec Ideal S512x4096 .f32) (b : Nat) (hb : b < 8)
    (hx : ∀ (p : Fin 512) (k : Fin 4096),
      x0 (ix2 p k) = W (ix2 (⟨b * 512 + p.val, by have := p.isLt; omega⟩ : Fin 4096) k))
    (y : S512x4096.Idx) (i : Spec.SW.Idx) (h0 : (i 0).val = b * 512 + (y 0).val) (h1 : (i 1).val = (y 1).val) :
    k0_pay2 (F := Ideal) x0 y = Spec.qWeight W (i 0) (i 1) := by
  obtain ⟨p, q, rfl⟩ : ∃ (p : Fin 512) (q : Fin 4096), y = ix2 p q := ⟨y 0, y 1, eq_ix2 y⟩
  have hlt : b * 512 + p.val < 4096 := by have := p.isLt; omega
  obtain ⟨n, k', rfl⟩ : ∃ (n k' : Fin 4096), i = ix2 n k' := ⟨i 0, i 1, eq_ix2 i⟩
  have hn : n = ⟨b * 512 + p.val, hlt⟩ := Fin.ext h0
  have hk : k' = q := Fin.ext h1
  subst hn hk
  show k0_pay2 (F := Ideal) x0 (ix2 p k') = Spec.qWeight W ⟨b * 512 + p.val, hlt⟩ k'
  rw [QuantBlock.pay_quant]
  unfold QuantBlock.blockNorm Spec.qWeight Spec.rowNorm
  simp only [hx]

/-- The column of norms at `y` is the row norm at the array row `y` sits at. -/
theorem norm_point (W : Spec.SW.Idx → EReal) (x0 : FVec Ideal S512x4096 .f32) (b : Nat) (hb : b < 8)
    (hx : ∀ (p : Fin 512) (k : Fin 4096),
      x0 (ix2 p k) = W (ix2 (⟨b * 512 + p.val, by have := p.isLt; omega⟩ : Fin 4096) k))
    (y : S512x1.Idx) (i : S4096x1.Idx) (h0 : (i 0).val = b * 512 + (y 0).val) :
    k0_pay1 (F := Ideal) x0 y = Spec.rowNorm W (i 0) := by
  obtain ⟨p, u, rfl⟩ : ∃ (p : Fin 512) (u : Fin 1), y = ix2 p u := ⟨y 0, y 1, eq_ix2 y⟩
  have hlt : b * 512 + p.val < 4096 := by have := p.isLt; omega
  obtain ⟨n, u', rfl⟩ : ∃ (n : Fin 4096) (u' : Fin 1), i = ix2 n u' := ⟨i 0, i 1, eq_ix2 i⟩
  have hn : n = ⟨b * 512 + p.val, hlt⟩ := Fin.ext h0
  subst hn
  show k0_pay1 (F := Ideal) x0 (ix2 p u) = Spec.rowNorm W ⟨b * 512 + p.val, hlt⟩
  rw [QuantBlock.pay_norm]
  unfold QuantBlock.blockNorm Spec.rowNorm
  simp only [hx]

/-! ## The region, at any contents `V` it is entered from -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` every window is at block row `t`, block column `0`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t` holds rows `512 t …` of the weight matrix. -/
theorem read_w (c : Dev nD) (t : Fin cfg0.N) (p : Fin 512) (k : Fin 4096) :
    iblk0 V c 0 t (ix2 p k)
      = V c main_arg1 (ix2 (⟨t.val * 512 + p.val, by
          have := p.isLt; have := Nat.lt_of_lt_of_eq t.isLt N_0; omega⟩ : Fin 4096) k) := by
  obtain ⟨e00, e01, -, -, -, -⟩ := idx0 t
  show V c main_arg1 (((cfg0.win 0).blk t).view.emb (ix2 p k)) = V c main_arg1 (ix2 _ k)
  refine congrArg (V c main_arg1) (funext fun a => Fin.ext ?_)
  match a with
  | ⟨0, _⟩ => show win0_0.index t (0 : Fin 2) * 512 + 1 * p.val = t.val * 512 + p.val; omega
  | ⟨1, _⟩ => show win0_0.index t (1 : Fin 2) * 4096 + 1 * k.val = k.val; omega

/-- What point `t` writes back to the quantized matrix is its block of the quantized weights. -/
theorem flushed_q (c : Dev nD) (t : Fin cfg0.N) :
    (dat0 V c).flushed 1 t = ((cfg0.win 1).blk t).view.read (Elt Ideal)
      (fun i : Spec.SW.Idx => Spec.qWeight (V c main_arg1) (i 0) (i 1)) := by
  show (cfg0.win 1).cut (grid0.coords t) ((dat0 V c).after 1 t) = _
  rw [after0_1]
  unfold out0_1
  rw [View.canon_unit_zero hz]
  simp only [View.ld_unit_zero (S := S512x4096) hz]
  obtain ⟨-, -, e10, e11, -, -⟩ := idx0 t
  have ht : t.val < 8 := Nat.lt_of_lt_of_eq t.isLt N_0
  funext y
  refine quant_point (V c main_arg1) (iblk0 V c 0 t) t.val ht (fun p k => read_w V c t p k) y
    (((cfg0.win 1).blk t).view.emb y) ?_ ?_
  · show win0_1.index t (0 : Fin 2) * 512 + 1 * (y 0).val = t.val * 512 + (y 0).val; omega
  · show win0_1.index t (1 : Fin 2) * 4096 + 1 * (y 1).val = (y 1).val; omega

/-- What point `t` writes back to the column of norms is its block of the row norms. -/
theorem flushed_n (c : Dev nD) (t : Fin cfg0.N) :
    (dat0 V c).flushed 2 t = ((cfg0.win 2).blk t).view.read (Elt Ideal)
      (fun i : S4096x1.Idx => Spec.rowNorm (V c main_arg1) (i 0)) := by
  show (cfg0.win 2).cut (grid0.coords t) ((dat0 V c).after 2 t) = _
  rw [after0_2]
  unfold out0_2
  rw [View.canon_unit_zero hz]
  simp only [View.ld_unit_zero (S := S512x4096) hz]
  obtain ⟨-, -, -, -, e20, e21⟩ := idx0 t
  have ht : t.val < 8 := Nat.lt_of_lt_of_eq t.isLt N_0
  funext y
  refine norm_point (V c main_arg1) (iblk0 V c 0 t) t.val ht (fun p k => read_w V c t p k) y
    (((cfg0.win 2).blk t).view.emb y) ?_
  show win0_2.index t (0 : Fin 2) * 512 + 1 * (y 0).val = t.val * 512 + (y 0).val; omega

/-- An index of the quantized matrix is in point `t`'s block iff each coordinate is in the block's range. -/
theorem mem_blk_q (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0_0).slice (win0_1.rect t)).set ↔ _
  rw [View.set_slice_whole, Rect.mem_set_unit]
  exact Iff.rfl

/-- The same for the column of norms. -/
theorem mem_blk_n (t : Fin cfg0.N) (i : S4096x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v0_1).slice (win0_2.rect t)).set ↔ _
  rw [View.set_slice_whole, Rect.mem_set_unit]
  exact Iff.rfl

/-- Row `n` of the quantized matrix lies in the block of point `n / 512`. -/
theorem cover_q (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, e10, e11, -, -⟩ := idx0 t
  refine ⟨t, flush0_1 t, ?_⟩
  rw [mem_blk_q]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- Row `n` of the column of norms lies in the block of point `n / 512`. -/
theorem cover_n (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, -, -, e20, e21⟩ := idx0 t
  refine ⟨t, flush0_2 t, ?_⟩
  rw [mem_blk_n]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1 ≤ (i 1).val ∧ (i 1).val < win0_2.index t (1 : Fin 2) * 1 + 1
    omega

/-- The quantized matrix after the region: the quantized weights of the weight matrix it found. -/
theorem final_q (c : Dev nD) :
    (dat0 V c).arrAt 1 cfg0.N = fun i : Spec.SW.Idx => Spec.qWeight (V c main_arg1) (i 0) (i 1) :=
  (dat0 V c).arrAt_eq_of_cover 1 _ (fun t _ => flushed_q V c t) cover_q

/-- The column of norms after the region: the row norms of the weight matrix it found. -/
theorem final_n (c : Dev nD) :
    (dat0 V c).arrAt 2 cfg0.N = fun i : S4096x1.Idx => Spec.rowNorm (V c main_arg1) (i 0) :=
  (dat0 V c).arrAt_eq_of_cover 2 _ (fun t _ => flushed_n V c t) cover_n

end Cert.QuantArray

end
-- ==== Proof.MatmulBlock.lean ====
/-
  What the matrix-product kernel computes on one 512 × 512 block of its output.

  From a block `x0` of 512 rows of the flattened input, a block `x1` of 512 rows of quantized weights,
  and the matching 512 entries of the norms `x2` and the bias `x3` (each a single row), the body forms
  the product of `x0` with the transpose of `x1` — at `(p, q)` the sum over `k` of `x0(p,k) · x1(q,k)`,
  accumulated from zero —, multiplies column `q` by `x2(0,q)` and adds `x3(0,q)`.
-/
import proofs.«181053_j1073741824331_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.MatmulBlock

open Cert.KernelIdeal Cert.KernelIdeal.Gen Idealize.ShloMosaic Idealize.ShloMosaic.ValueIdx

/-- The product's dimension record: both operands contract their second axis; the output's axes are the
    operands' first axes. -/
abbrev D := dot_S512x4096_S512x4096_S512x512_1_1_0_0_n_n

/-- The left operand's index at output `i` and contraction index `q`: row `i 0`, column `q`. -/
theorem lhs0 (i : S512x512.Idx) (q : D.contr.Idx) : (D.lhsIdx i q 0).val = (i 0).val := by
  unfold DotDims.lhsIdx
  rw [dif_neg (show ¬(0 : Fin S512x4096.rank) ∈ D.lhsBatch by decide),
    dif_pos (show (0 : Fin S512x4096.rank) ∈ D.lhsNonContracting by decide)]
  rfl
theorem lhs1 (i : S512x512.Idx) (q : D.contr.Idx) : (D.lhsIdx i q 1).val = (q ⟨0, by decide⟩).val :=
  D.lhsIdx_val_of_single rfl i q
/-- The right operand's index: row `i 1`, column `q`. -/
theorem rhs0 (i : S512x512.Idx) (q : D.contr.Idx) : (D.rhsIdx i q 0).val = (i 1).val := by
  unfold DotDims.rhsIdx
  rw [dif_neg (show ¬(0 : Fin S512x4096.rank) ∈ D.rhsBatch by decide),
    dif_pos (show (0 : Fin S512x4096.rank) ∈ D.rhsNonContracting by decide)]
  rfl
theorem rhs1 (i : S512x512.Idx) (q : D.contr.Idx) : (D.rhsIdx i q 1).val = (q ⟨0, by decide⟩).val :=
  D.rhsIdx_val_of_single rfl i q

/-- The product into a zero accumulator, at `(p, q)`: the sum over `k` of `l(p,k) · r(q,k)`. -/
theorem matmul_at (l r : FVec Ideal S512x4096 .bf16) (p q : Fin 512) :
    matmul (F := Ideal) D none l r (constant (F := Ideal) S512x512 .f32 0x00000000#32) (ix2 p q)
      = ∑ k : Fin 4096, l (ix2 p k) * r (ix2 q k) := by
  simp only [matmul]
  rw [Ideal.matmul_constant_zero_apply, ← Equiv.sum_comp (ValueIdx.contrEquiv1 D 4096 rfl rfl).symm]
  refine Finset.sum_congr rfl fun k _ => ?_
  have hk := ValueIdx.contrEquiv1_symm_val D 4096 rfl rfl k
  have el : D.lhsIdx (ix2 p q) ((ValueIdx.contrEquiv1 D 4096 rfl rfl).symm k) = ix2 p k :=
    funext fun a => Fin.ext (by
      match a with
      | ⟨0, _⟩ => exact lhs0 _ _
      | ⟨1, _⟩ => exact (lhs1 _ _).trans hk)
  have er : D.rhsIdx (ix2 p q) ((ValueIdx.contrEquiv1 D 4096 rfl rfl).symm k) = ix2 q k :=
    funext fun a => Fin.ext (by
      match a with
      | ⟨0, _⟩ => exact rhs0 _ _
      | ⟨1, _⟩ => exact (rhs1 _ _).trans hk)
  rw [el, er]

/-- The block the body stores, at `(p, q)`. -/
theorem pay_out (x0 : FVec Ideal S512x4096 .f32) (x1 : FVec Ideal S512x4096 .bf16) (x2 x3 : FVec Ideal S1x512 .f32)
    (p q : Fin 512) :
    k1_pay1 (F := Ideal) x0 x1 x2 x3 (ix2 p q)
      = (∑ k : Fin 4096, x0 (ix2 p k) * x1 (ix2 q k)) * x2 (ix2 (0 : Fin 1) q) + x3 (ix2 (0 : Fin 1) q) := by
  unfold k1_pay1
  show matmul (F := Ideal) D none
        (truncf .bf16 (shapeCast S512x4096 x0 shapeCasts_S512x4096_S512x4096) bitsLt_bf16_f32)
        (shapeCast S512x4096 x1 shapeCasts_S512x4096_S512x4096)
        (constant (F := Ideal) S512x512 .f32 0x00000000#32) (ix2 p q)
      * broadcastTo S512x512 (shapeCast S1x512 x2 shapeCasts_S1x512_S1x512) broadcasts_S1x512_S512x512 (ix2 p q)
      + broadcastTo S512x512 (shapeCast S1x512 x3 shapeCasts_S1x512_S1x512) broadcasts_S1x512_S512x512 (ix2 p q) = _
  rw [shapeCast_self, shapeCast_self, shapeCast_self, shapeCast_self, matmul_at,
    broadcastTo_1b_ab_apply, broadcastTo_1b_ab_apply]
  rfl

end Cert.MatmulBlock

end
-- ==== Proof.MatmulArray.lean ====
/-
  The array the matrix-product kernel leaves, as a whole-array function of the four arrays it finds.

  The grid is 16 × 8; point `t` is at `(t / 8, t % 8)`. It reads rows `512 (t/8) …` of the flattened
  input `X`, rows `512 (t%8) …` of the quantized weights `Q`, entries `512 (t%8) …` of the row of
  norms `N` and of the row of biases `B`, and writes the 512 × 512 block at `(t/8, t%8)` of the output.
  So what point `t` writes back is its block of ONE function: at `(r, n)`,
  `(∑ₖ X(r,k) · Q(n,k)) · N(0,n) + B(0,n)`. The index `(r, n)` lies in the block of point
  `(r/512) · 8 + n/512`, so the blocks cover the output, which ends holding that function.
-/
import proofs.«181053_j1073741824331_1_alg».proof.Proof.Gen.KernelIdeal.Frame
import proofs.«181053_j1073741824331_1_alg».proof.Proof.MatmulBlock
import proofs.«181053_j1073741824331_1_alg».proof.Proof.Spec

set_option maxRecDepth 16384

noncomputable section

namespace Cert.MatmulArray

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The output at row `r` and channel `n`, from the flattened input, the quantized weights, the row of
    norms and the row of biases. -/
def prodAt (X : Spec.SX2.Idx → EReal) (Q : Spec.SW.Idx → EReal) (Nn Bb : S1x4096.Idx → EReal)
    (r : Fin 8192) (n : Fin 4096) : EReal :=
  (∑ k : Fin 4096, X (ix2 r k) * Q (ix2 n k)) * Nn (ix2 (0 : Fin 1) n) + Bb (ix2 (0 : Fin 1) n)

/-! ## One point's block, over any arrays whose parts at block `(bi, bj)` the four blocks hold -/

theorem out_point (X : Spec.SX2.Idx → EReal) (Q : Spec.SW.Idx → EReal) (Nn Bb : S1x4096.Idx → EReal)
    (x0 : FVec Ideal S512x4096 .f32) (x1 : FVec Ideal S512x4096 .bf16) (x2 x3 : FVec Ideal S1x512 .f32)
    (bi bj : Nat) (hbi : bi < 16) (hbj : bj < 8)
    (h0 : ∀ (p : Fin 512) (k : Fin 4096),
      x0 (ix2 p k) = X (ix2 (⟨bi * 512 + p.val, by have := p.isLt; omega⟩ : Fin 8192) k))
    (h1 : ∀ (q : Fin 512) (k : Fin 4096),
      x1 (ix2 q k) = Q (ix2 (⟨bj * 512 + q.val, by have := q.isLt; omega⟩ : Fin 4096) k))
    (h2 : ∀ q : Fin 512,
      x2 (ix2 (0 : Fin 1) q) = Nn (ix2 (0 : Fin 1) (⟨bj * 512 + q.val, by have := q.isLt; omega⟩ : Fin 4096)))
    (h3 : ∀ q : Fin 512,
      x3 (ix2 (0 : Fin 1) q) = Bb (ix2 (0 : Fin 1) (⟨bj * 512 + q.val, by have := q.isLt; omega⟩ : Fin 4096)))
    (y : S512x512.Idx) (i : Spec.SX2.Idx) (hi0 : (i 0).val = bi * 512 + (y 0).val)
    (hi1 : (i 1).val = bj * 512 + (y 1).val) :
    k1_pay1 (F := Ideal) x0 x1 x2 x3 y = prodAt X Q Nn Bb (i 0) (i 1) := by
  obtain ⟨p, q, rfl⟩ : ∃ (p q : Fin 512), y = ix2 p q := ⟨y 0, y 1, eq_ix2 y⟩
  have hr : bi * 512 + p.val < 8192 := by have := p.isLt; omega
  have hc : bj * 512 + q.val < 4096 := by have := q.isLt; omega
  obtain ⟨r, n, rfl⟩ : ∃ (r : Fin 8192) (n : Fin 4096), i = ix2 r n := ⟨i 0, i 1, eq_ix2 i⟩
  have er : r = ⟨bi * 512 + p.val, hr⟩ := Fin.ext hi0
  have en : n = ⟨bj * 512 + q.val, hc⟩ := Fin.ext hi1
  subst er en
  show k1_pay1 (F := Ideal) x0 x1 x2 x3 (ix2 p q)
    = prodAt X Q Nn Bb ⟨bi * 512 + p.val, hr⟩ ⟨bj * 512 + q.val, hc⟩
  rw [MatmulBlock.pay_out]
  unfold prodAt
  simp only [h0, h1, h2, h3]

/-! ## The region, at any contents `V` it is entered from -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the input rows are at block `t / 8`, the weights, norms and
    biases at block `t % 8`, the output at block `(t / 8, t % 8)`. -/
theorem idx1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = 0 ∧ win1_3.index t (1 : Fin 2) = t.val % 8
    ∧ win1_4.index t (0 : Fin 2) = t.val / 8 ∧ win1_4.index t (1 : Fin 2) = t.val % 8 :=
  (by decide +kernel : ∀ t : Fin grid1.N, _)

theorem lt_N (t : Fin cfg1.N) : t.val < 128 := Nat.lt_of_lt_of_eq t.isLt N_1

/-- The input block at point `t` holds rows `512 (t/8) …` of the flattened input. -/
theorem read_x (c : Dev nD) (t : Fin cfg1.N) (p : Fin 512) (k : Fin 4096) :
    iblk1 V c 0 t (ix2 p k)
      = V c main_v3 (ix2 (⟨t.val / 8 * 512 + p.val, by have := p.isLt; have := lt_N t; omega⟩ : Fin 8192) k) := by
  obtain ⟨e00, e01, -⟩ := idx1 t
  show V c main_v3 (((cfg1.win 0).blk t).view.emb (ix2 p k)) = V c main_v3 (ix2 _ k)
  refine congrArg (V c main_v3) (funext fun a => Fin.ext ?_)
  match a with
  | ⟨0, _⟩ => show win1_0.index t (0 : Fin 2) * 512 + 1 * p.val = t.val / 8 * 512 + p.val; omega
  | ⟨1, _⟩ => show win1_0.index t (1 : Fin 2) * 4096 + 1 * k.val = k.val; omega

/-- The weight block at point `t` holds rows `512 (t%8) …` of the quantized weights. -/
theorem read_q (c : Dev nD) (t : Fin cfg1.N) (q : Fin 512) (k : Fin 4096) :
    iblk1 V c 1 t (ix2 q k)
      = V c main_v0_0 (ix2 (⟨t.val % 8 * 512 + q.val, by have := q.isLt; omega⟩ : Fin 4096) k) := by
  obtain ⟨-, -, e10, e11, -⟩ := idx1 t
  show V c main_v0_0 (((cfg1.win 1).blk t).view.emb (ix2 q k)) = V c main_v0_0 (ix2 _ k)
  refine congrArg (V c main_v0_0) (funext fun a => Fin.ext ?_)
  match a with
  | ⟨0, _⟩ => show win1_1.index t (0 : Fin 2) * 512 + 1 * q.val = t.val % 8 * 512 + q.val; omega
  | ⟨1, _⟩ => show win1_1.index t (1 : Fin 2) * 4096 + 1 * k.val = k.val; omega

/-- The norm block at point `t` holds entries `512 (t%8) …` of the row of norms. -/
theorem read_n (c : Dev nD) (t : Fin cfg1.N) (q : Fin 512) :
    iblk1 V c 2 t (ix2 (0 : Fin 1) q)
      = V c main_v1 (ix2 (0 : Fin 1) (⟨t.val % 8 * 512 + q.val, by have := q.isLt; omega⟩ : Fin 4096)) := by
  obtain ⟨-, -, -, -, e20, e21, -⟩ := idx1 t
  show V c main_v1 (((cfg1.win 2).blk t).view.emb (ix2 (0 : Fin 1) q)) = V c main_v1 (ix2 (0 : Fin 1) _)
  refine congrArg (V c main_v1) (funext fun a => Fin.ext ?_)
  match a with
  | ⟨0, _⟩ => show win1_2.index t (0 : Fin 2) * 1 + 1 * 0 = 0; omega
  | ⟨1, _⟩ => show win1_2.index t (1 : Fin 2) * 512 + 1 * q.val = t.val % 8 * 512 + q.val; omega

/-- The bias block at point `t` holds entries `512 (t%8) …` of the row of biases. -/
theorem read_b (c : Dev nD) (t : Fin cfg1.N) (q : Fin 512) :
    iblk1 V c 3 t (ix2 (0 : Fin 1) q)
      = V c main_v2 (ix2 (0 : Fin 1) (⟨t.val % 8 * 512 + q.val, by have := q.isLt; omega⟩ : Fin 4096)) := by
  obtain ⟨-, -, -, -, -, -, e30, e31, -⟩ := idx1 t
  show V c main_v2 (((cfg1.win 3).blk t).view.emb (ix2 (0 : Fin 1) q)) = V c main_v2 (ix2 (0 : Fin 1) _)
  refine congrArg (V c main_v2) (funext fun a => Fin.ext ?_)
  match a with
  | ⟨0, _⟩ => show win1_3.index t (0 : Fin 2) * 1 + 1 * 0 = 0; omega
  | ⟨1, _⟩ => show win1_3.index t (1 : Fin 2) * 512 + 1 * q.val = t.val % 8 * 512 + q.val; omega

/-- What point `t` writes back to the output is its block of the one function. -/
theorem flushed_o (c : Dev nD) (t : Fin cfg1.N) :
    (dat1 V c).flushed 4 t = ((cfg1.win 4).blk t).view.read (Elt Ideal)
      (fun i : Spec.SX2.Idx => prodAt (V c main_v3) (V c main_v0_0) (V c main_v1) (V c main_v2) (i 0) (i 1)) := by
  show (cfg1.win 4).cut (grid1.coords t) ((dat1 V c).after 4 t) = _
  rw [after1_4]
  unfold out1_4
  rw [View.canon_unit_zero hz]
  simp only [View.ld_unit_zero (S := S512x4096) hz, View.ld_unit_zero (S := S1x512) hz]
  obtain ⟨-, -, -, -, -, -, -, -, e40, e41⟩ := idx1 t
  have ht := lt_N t
  funext y
  refine out_point (V c main_v3) (V c main_v0_0) (V c main_v1) (V c main_v2)
    (iblk1 V c 0 t) (iblk1 V c 1 t) (iblk1 V c 2 t) (iblk1 V c 3 t) (t.val / 8) (t.val % 8) (by omega) (by omega)
    (fun p k => read_x V c t p k) (fun q k => read_q V c t q k) (fun q => read_n V c t q) (fun q => read_b V c t q)
    y (((cfg1.win 4).blk t).view.emb y) ?_ ?_
  · show win1_4.index t (0 : Fin 2) * 512 + 1 * (y 0).val = t.val / 8 * 512 + (y 0).val; omega
  · show win1_4.index t (1 : Fin 2) * 512 + 1 * (y 1).val = t.val % 8 * 512 + (y 1).val; omega

/-- An index of the output is in point `t`'s block iff each coordinate is in the block's range. -/
theorem mem_blk_o (t : Fin cfg1.N) (i : S8192x4096.Idx) :
    i ∈ ((cfg1.win 4).blk t).view.set ↔ ∀ a : Fin 2, win1_4.index t a * S512x512.size a ≤ (i a).val
      ∧ (i a).val < win1_4.index t a * S512x512.size a + S512x512.size a := by
  show i ∈ ((View.whole main_v4).slice (win1_4.rect t)).set ↔ _
  rw [View.set_slice_whole, Rect.mem_set_unit]
  exact Iff.rfl

/-- The output index `(r, n)` lies in the block of point `(r / 512) · 8 + n / 512`. -/
theorem cover_o (i : S8192x4096.Idx) :
    ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨t, ht⟩ : ∃ t : Fin cfg1.N, t.val = (i 0).val / 512 * 8 + (i 1).val / 512 :=
    ⟨⟨(i 0).val / 512 * 8 + (i 1).val / 512, by
      show (i 0).val / 512 * 8 + (i 1).val / 512 < grid1.N; rw [N_1]; omega⟩, rfl⟩
  obtain ⟨-, -, -, -, -, -, -, -, e40, e41⟩ := idx1 t
  refine ⟨t, flush1_4 t, ?_⟩
  rw [mem_blk_o]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 512 ≤ (i 1).val ∧ (i 1).val < win1_4.index t (1 : Fin 2) * 512 + 512
    omega

/-- The output after the region: the one function of the four arrays it found. -/
theorem final_o (c : Dev nD) :
    (dat1 V c).arrAt 4 cfg1.N
      = fun i : Spec.SX2.Idx => prodAt (V c main_v3) (V c main_v0_0) (V c main_v1) (V c main_v2) (i 0) (i 1) :=
  (dat1 V c).arrAt_eq_of_cover 4 _ (fun t _ => flushed_o V c t) cover_o

end Cert.MatmulArray

end
-- ==== Proof.LibFlatten.lean ====
/-
  Two re-layouts read at an index.

  An `a × 1` column re-laid as a `1 × a` row holds, at `(0, c)`, the column's entry at `(c, 0)`: both are
  number `c` in row-major order.
  An `n × c` array with `n = a · b` re-laid as `a × b × c` holds, at `(i, j, k)`, the array's entry at
  row `i · b + j` and column `k`: both are number `(i · b + j) · c + k` in row-major order.
-/
import Idealize.ShloMosaic.Lib.Pipeline.Value
import Idealize.ShloMosaic.Lib.ValueIdx

namespace Cert.LibFlatten

open Idealize.ShloMosaic Idealize.ShloMosaic.ValueIdx

variable {α : Type}

/-- An `a × 1` column cast to a `1 × a` row reads, at `(u, c)`, the column at `(c, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (c : Fin a) :
    shapeCast ⟨2, ![1, a]⟩ x h (ix2 u c) = x (ix2 c (0 : Fin 1)) :=
  shapeCast_apply x h (ix2 u c) (ix2 c (0 : Fin 1)) (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `n × c` array cast to `a × b × c` reads, at `(i, j, k)`, the array at row `r = i · b + j`, column `k`. -/
theorem shapeCast_flat_abc_apply {n a b c : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h (ix3 i j k) (ix2 r k) (by
    rw [Shape.rowMajor_val_two, Shape.rowMajor_val_three]
    show r.val * c + k.val = (i.val * b + j.val) * c + k.val
    rw [hr])

end Cert.LibFlatten
-- ==== Proof.KernelValue.lean ====
/-
  The kernel program's result is the specification.

  Between the two regions three host reshapes lay the flattened input, the row of norms and the row of
  biases out for the second region; the quantized weights pass through untouched. So the second region
  finds: the input flattened to 8192 × 4096; the quantized weights `q(n,k)` of the launched matrix; the
  column of row norms re-laid as a row; the bias re-laid as a row. Its output at `(r, n)` is then
  `(∑ₖ X(r,k) · q(n,k)) · ‖W n‖ + b n`, and the last reshape reads it at row `i₀ · 2048 + i₁`, column `i₂`.
-/
import proofs.«181053_j1073741824331_1_alg».proof.Proof.Gen.KernelIdeal.Frame
import proofs.«181053_j1073741824331_1_alg».proof.Proof.QuantArray
import proofs.«181053_j1073741824331_1_alg».proof.Proof.MatmulArray
import proofs.«181053_j1073741824331_1_alg».proof.Proof.LibFlatten
import Idealize.ShloMosaic.Lib.ValueLayout
import Idealize.ShloMosaic.Lib.StableHlo.Run

set_option maxRecDepth 16384

noncomputable section

namespace Cert.KernelValue

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The second region finds the launched input flattened to 8192 × 4096. -/
theorem entry_x (c : Dev nD) :
    (V2 m ρ c main_v3 : S8192x4096.Idx → EReal)
      = shapeCast S8192x4096 (m ((c : Thread nD τ).loc main_arg0)) shapeCasts_S4x2048x4096_S8192x4096 := by
  show StableHlo.after hostOps1 (W1 m ρ c) (Proc.devRef .tc main_v3) = _
  after_results
  rw [W1_of_ne m ρ c main_arg0 (by decide)]
  rfl

/-- It finds the quantized weights of the launched matrix, as the first region left them. -/
theorem entry_q (c : Dev nD) :
    (V2 m ρ c main_v0_0 : S4096x4096.Idx → EReal)
      = fun i : Spec.SW.Idx => Spec.qWeight (m ((c : Thread nD τ).loc main_arg1)) (i 0) (i 1) := by
  show StableHlo.after hostOps1 (W1 m ρ c) (Proc.devRef .tc main_v0_0) = _
  after_results
  exact (W1_arr m ρ c 1).trans (QuantArray.final_q (V0 m ρ) c)

/-- It finds the column of row norms re-laid as a row. -/
theorem entry_n (c : Dev nD) :
    (V2 m ρ c main_v1 : S1x4096.Idx → EReal)
      = shapeCast S1x4096 (fun i : S4096x1.Idx => Spec.rowNorm (m ((c : Thread nD τ).loc main_arg1)) (i 0))
          shapeCasts_S4096x1_S1x4096 := by
  have e : W1 m ρ c (Proc.devRef .tc main_v0_1)
      = fun i : S4096x1.Idx => Spec.rowNorm (m ((c : Thread nD τ).loc main_arg1)) (i 0) :=
    (W1_arr m ρ c 2).trans (QuantArray.final_n (V0 m ρ) c)
  show StableHlo.after hostOps1 (W1 m ρ c) (Proc.devRef .tc main_v1) = _
  after_results
  rw [e]
  rfl

/-- It finds the launched bias re-laid as a row. -/
theorem entry_b (c : Dev nD) :
    (V2 m ρ c main_v2 : S1x4096.Idx → EReal)
      = shapeCast S1x4096 (m ((c : Thread nD τ).loc main_arg2)) shapeCasts_S4096_S1x4096 := by
  show StableHlo.after hostOps1 (W1 m ρ c) (Proc.devRef .tc main_v2) = _
  after_results
  rw [W1_of_ne m ρ c main_arg2 (by decide)]
  rfl

/-- The second region's output, from what it found. -/
theorem region_out (c : Dev nD) :
    (W3 m ρ c (Proc.devRef .tc main_v4) : S8192x4096.Idx → EReal)
      = fun i : Spec.SX2.Idx => MatmulArray.prodAt (V2 m ρ c main_v3) (V2 m ρ c main_v0_0) (V2 m ρ c main_v1)
          (V2 m ρ c main_v2) (i 0) (i 1) :=
  (W3_arr m ρ c 4).trans (MatmulArray.final_o (V2 m ρ) c)

/-- The result buffer is the second region's output re-laid on three axes. -/
theorem result_cast (c : Dev nD) :
    (W4 m ρ c (Proc.devRef .tc main_v5) : S4x2048x4096.Idx → EReal)
      = shapeCast S4x2048x4096 (W3 m ρ c (Proc.devRef .tc main_v4)) shapeCasts_S8192x4096_S4x2048x4096 := by
  show StableHlo.after hostOps2 (W3 m ρ c) (Proc.devRef .tc main_v5) = _
  after_results
  rfl

/-- The result buffer holds the specification of the launched input (flattened), matrix and bias. -/
theorem value (c : Dev nD) :
    (W4 m ρ c (Proc.devRef .tc main_v5) : S4x2048x4096.Idx → EReal)
      = Spec.result (shapeCast S8192x4096 (m ((c : Thread nD τ).loc main_arg0)) shapeCasts_S4x2048x4096_S8192x4096)
          (m ((c : Thread nD τ).loc main_arg1)) (m ((c : Thread nD τ).loc main_arg2)) := by
  rw [result_cast, region_out]
  funext i
  obtain ⟨a, b, k, rfl⟩ : ∃ (a : Fin 4) (b : Fin 2048) (k : Fin 4096), i = ix3 a b k := ⟨i 0, i 1, i 2, eq_ix3 i⟩
  rw [LibFlatten.shapeCast_flat_abc_apply _ _ (Spec.rowOf (ix3 a b k)) a b k rfl]
  show MatmulArray.prodAt _ _ _ _ (Spec.rowOf (ix3 a b k)) k = Spec.outAt _ _ _ (Spec.rowOf (ix3 a b k)) k
  unfold MatmulArray.prodAt Spec.outAt
  rw [entry_x, entry_q, entry_n, entry_b, LibFlatten.shapeCast_a1_1a_apply, shapeCast_a_1a_apply]

end Cert.KernelValue

end
-- ==== Proof.RefValue.lean ====
/-
  The reference's result is the specification.

  Its stages, read at an index: the row sum of squares starts from a zero and adds the row's squares,
  so its square root is the row norm; the normalize / clip / divide / round / multiply chain is the
  quantizer applied to the weight and its row's norm; the matrix product at `(r, n)` sums over `k` the
  flattened input at `(r, k)` times the quantized weight at `(n, k)`; the norm and the bias are
  broadcast along the rows. The last reshape sends `(i₀, i₁, i₂)` to row `i₀ · 2048 + i₁`, column `i₂`.
-/
import proofs.«181053_j1073741824331_1_alg».proof.Proof.Gen.ReferenceIdeal.Read
import proofs.«181053_j1073741824331_1_alg».proof.Proof.Spec
import Idealize.ShloMosaic.PureOps.Ideal.Laws

noncomputable section

namespace Cert.RefValue

open Cert.ReferenceIdeal Cert.ReferenceIdeal.Read Idealize.ShloMosaic Idealize.ShloMosaic.ValueIdx

/-- The reference's row norm: the host sum is its zero start plus the sum of the row's squares. -/
theorem norm_eq (W : (⟨S4096x4096, .f32⟩ : BufTy).Contents (Elt Ideal)) (n : Fin 4096) :
    val_main_v2 (F := Ideal) W (ix1 n) = Spec.rowNorm W n := by
  rw [val_main_v2_apply, val_main_v1_apply]
  have e : ∀ k : Fin 4096, idx_main_v1 (ix1 n) k = ix2 n k := fun k =>
    funext fun a => Fin.ext (by match a with | ⟨0, _⟩ => rfl | ⟨1, _⟩ => rfl)
  simp only [e, val_main_v0_apply, val_main_cst_apply, Ideal.ofBits_def, Ideal.ofBits_zero_f32, zero_add,
    Ideal.mulf_def, Ideal.hostUnary_sqrt_def]
  rfl

/-- The reference's quantized weight at `(n, k)`. -/
theorem q_eq (W : (⟨S4096x4096, .f32⟩ : BufTy).Contents (Elt Ideal)) (n k : Fin 4096) :
    val_main_v13 (F := Ideal) W (ix2 n k) = Spec.qWeight W n k := by
  have e : idx_main_v3 (idx_main_v6 (ix2 n k)) = ix1 n :=
    funext fun a => Fin.ext (by match a with | ⟨0, _⟩ => rfl)
  simp only [val_main_v13_apply, val_main_v12_apply, val_main_cst_4_apply, val_main_v11_apply, val_main_v10_apply,
    val_main_v9_apply, val_main_cst_3_apply, val_main_v8_apply, val_main_call0_v4_apply, val_main_call0_v3_apply,
    val_main_cst_2_apply, val_main_call0_v2_apply, val_main_call0_v1_apply, val_main_call0_v0_apply,
    val_main_cst_1_apply, val_main_v7_apply, val_main_v6_apply, val_main_v5_apply, val_main_v3_apply,
    val_main_v4_apply, val_main_cst_0_apply, e, norm_eq]
  rfl

/-- The reference's result, index by index, is the specification at the flattened input. -/
theorem result_eq (x0 : (⟨S4x2048x4096, .f32⟩ : BufTy).Contents (Elt Ideal))
    (x1 : (⟨S4096x4096, .f32⟩ : BufTy).Contents (Elt Ideal)) (x2 : (⟨S4096, .f32⟩ : BufTy).Contents (Elt Ideal)) :
    val_main_v22 (F := Ideal) x0 x1 x2 = Spec.result (val_main_v14 (F := Ideal) x0) x1 x2 := by
  funext i
  obtain ⟨a, b, c, rfl⟩ : ∃ (a : Fin 4) (b : Fin 2048) (c : Fin 4096), i = ix3 a b c := ⟨i 0, i 1, i 2, eq_ix3 i⟩
  have ha : a.val < 4 := a.isLt
  have hb : b.val < 2048 := b.isLt
  have hc : c.val < 4096 := c.isLt
  have hl : ∀ k : Fin 4096, lidx_main_v15 (idx_main_v19 (ix3 a b c)) k = ix2 (Spec.rowOf (ix3 a b c)) k := fun k =>
    funext fun ax => Fin.ext (by
      match ax with
      | ⟨0, _⟩ => show ((a.val * 2048 + b.val) * 4096 + c.val) / 4096 = a.val * 2048 + b.val; omega
      | ⟨1, _⟩ => rfl)
  have hr : ∀ k : Fin 4096, ridx_main_v15 (idx_main_v19 (ix3 a b c)) k = ix2 c k := fun k =>
    funext fun ax => Fin.ext (by
      match ax with
      | ⟨0, _⟩ => show ((a.val * 2048 + b.val) * 4096 + c.val) % 4096 = c.val; omega
      | ⟨1, _⟩ => rfl)
  have hn : idx_main_v16 (idx_main_v17 (idx_main_v19 (ix3 a b c))) = ix1 c :=
    funext fun ax => Fin.ext (by
      match ax with
      | ⟨0, _⟩ => show ((a.val * 2048 + b.val) * 4096 + c.val) % 4096 = c.val; omega)
  have hbias : idx_main_v20 (idx_main_v21 (ix3 a b c)) = ix1 c :=
    funext fun ax => Fin.ext (by match ax with | ⟨0, _⟩ => rfl)
  rw [val_main_v22_apply, val_main_v19_apply, val_main_v18_apply, val_main_v15_apply, val_main_v17_apply,
    val_main_v16_apply, val_main_v21_apply, val_main_v20_apply, hn, hbias, norm_eq]
  simp only [hl, hr, q_eq]
  rfl

end Cert.RefValue

end
-- ==== Proof.lean ====
/-
  The quantized linear layer: the kernel program and its reference compute one function.

  Both programs take an input `x` (4 × 2048 × 4096), a weight matrix `W` (4096 × 4096) and a bias `b`.
  Row `n` of `W` has the norm `‖W n‖ = √(∑ₖ W(n,k)²)`; each weight is divided by its row's norm plus a
  small constant, clipped to `[-1, 1]`, divided by a step, rounded half to even and multiplied by the step
  again, giving `q(n,k)`; the result at `(i₀, i₁, i₂)` is `(∑ₖ x(i₀,i₁,k) · q(i₂,k)) · ‖W i₂‖ + b i₂`.

  The reference computes this with host operations on whole arrays. The kernel program computes the
  norms and the quantized weights in a first kernel, 512 rows at a time, and the products in a second
  one, a 512 × 512 block of the output at a time, with reshapes in between. Over the extended reals a
  change of float format is the identity and a sum does not depend on how it is grouped, so the two are
  the same function index by index; no law is used that would need the inputs to be finite.

  `Spec` states the function; `RefValue` reads the reference's result as it; `QuantBlock` / `QuantArray`
  and `MatmulBlock` / `MatmulArray` read what each kernel leaves, block by block and then as whole
  arrays; `KernelValue` carries these through the reshapes to the result buffer; `KernelRun` is the
  kernel program's run with the result buffer named.
-/
import proofs.«181053_j1073741824331_1_alg».proof.Defs
import proofs.«181053_j1073741824331_1_alg».proof.Proof.Gen.Kernel
import proofs.«181053_j1073741824331_1_alg».proof.Proof.Gen.Kernel.Skeleton
import proofs.«181053_j1073741824331_1_alg».proof.Proof.Gen.Kernel.Launch
import proofs.«181053_j1073741824331_1_alg».proof.Proof.Gen.Kernel.Points
import proofs.«181053_j1073741824331_1_alg».proof.Proof.Gen.Kernel.Frame
import proofs.«181053_j1073741824331_1_alg».proof.Proof.Gen.KernelIdeal
import proofs.«181053_j1073741824331_1_alg».proof.Proof.Gen.KernelIdeal.Skeleton
import proofs.«181053_j1073741824331_1_alg».proof.Proof.Gen.KernelIdeal.Launch
import proofs.«181053_j1073741824331_1_alg».proof.Proof.Gen.KernelIdeal.Points
import proofs.«181053_j1073741824331_1_alg».proof.Proof.Gen.KernelIdeal.Frame
import proofs.«181053_j1073741824331_1_alg».proof.Proof.Gen.ReferenceIdeal
import proofs.«181053_j1073741824331_1_alg».proof.Proof.Gen.ReferenceIdeal.Run
import proofs.«181053_j1073741824331_1_alg».proof.Proof.Gen.ReferenceIdeal.Read
import proofs.«181053_j1073741824331_1_alg».proof.Proof.Gen.Pre_finite_inputs
import proofs.«181053_j1073741824331_1_alg».proof.Proof.KernelRun
import proofs.«181053_j1073741824331_1_alg».proof.Proof.KernelValue
import proofs.«181053_j1073741824331_1_alg».proof.Proof.RefValue
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the one function of
    the launched input, matrix and bias. -/
theorem algebraic : Cert.algebraic_KernelIdeal_ReferenceIdeal := by
  intro m ρ m' ρ' _ hagree
  have hk := (θ_run Cert.KernelIdeal.defs _ _).mono
    (fun r h c => (⟨(h c).1.trans (Cert.KernelValue.value m ρ c), (h c).2⟩ : _ ∧ _))
    (Cert.KernelRun.run_result m ρ)
  refine ⟨_, hk, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
